-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1000x128 : Shape := ⟨2, ![1000, 128]⟩
abbrev S1700000x128 : Shape := ⟨2, ![1700000, 128]⟩
abbrev S1x128 : Shape := ⟨2, ![1, 128]⟩
abbrev S100000x64 : Shape := ⟨2, ![100000, 64]⟩
abbrev S1000x64 : Shape := ⟨2, ![1000, 64]⟩
abbrev S1700000x64 : Shape := ⟨2, ![1700000, 64]⟩
abbrev S1x64 : Shape := ⟨2, ![1, 64]⟩

abbrev nBuf : Space → Nat
  | .hbm => 91
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1700000x1, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S128x64, .f32⟩
  | .local _ .vmem, ⟨8, _⟩ => ⟨S1000x64, .f32⟩
  | .local _ .vmem, ⟨9, _⟩ => ⟨S1000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S1000x128_S1000x128 : S1000x128.ShapeCasts S1000x128
  inb_S128x64_S128x64_0_0 : ∀ a, (![0, 0] : Fin 2 → Nat) a + S128x64.size a ≤ S128x64.size a
  h_S128x64 : 0 < S128x64.numel
  inb_S1000x64_S1000x64_0_0 : ∀ a, (![0, 0] : Fin 2 → Nat) a + S1000x64.size a ≤ S1000x64.size a
  h_S1000x64 : 0 < S1000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S1000x128_S128x128_S1000x128_1_0_0_1_n_n_wf : DotDims.WF S1000x128 S128x128 S1000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S1000x128_S128x64_S1000x64_1_0_0_1_n_n_wf : DotDims.WF S1000x128 S128x64 S1000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S100000x128.size a
  hwx0_2 : ∀ i : grid0.Coords, EltTy.bits .f32 = 32 ∨ (Rect.block (s := S100000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x64.size a ≤ S100000x64.size a
  hwx1_2 : ∀ i : grid1.Coords, EltTy.bits .f32 = 32 ∨ (Rect.block (s := S100000x64) S1000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1700000x1, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Stages.lean ====
/-
  The graph convolution both programs compute, as functions of whole arrays.

  The edge list `e : i32[2, 1600000]` gives, for every edge, its source (row 0) and its target (row 1); each of
  the 100000 nodes also gets a self loop, so both endpoint lists have 1700000 entries (`endpoints`). The degree of a
  node counts the list entries that target it (`degree`: a scatter-add of ones), `invSqrtDegree` is
  `deg^(-1/2)` where the degree is positive and `0` elsewhere, and an entry from `s` to `d` carries the weight
  `invSqrtDegree s · invSqrtDegree d` (`edgeWeight`; a negative index is first wrapped by adding the node count,
  `wrapIndex`, as jnp indexing does). One layer takes node features `h` that have ALREADY been multiplied by the layer's weight
  matrix, gathers the row of each entry's source, scales it by the entry's weight and adds it into the row of the
  entry's target (`aggregate128`, `aggregate64`); then the bias is added, and after the first layer the rectifier is
  applied (`hidden`); the second layer's sum plus bias is the result (`output`).

  Nothing here depends on how the dense products `x · W1` and `hidden · W2` are computed: the two programs differ in
  that alone. `dense1` and `dense2` are those products as whole-array contractions.
-/
import proofs.«135771_j8881992368566_1_alg».proof.KernelIdeal
import proofs.«135771_j8881992368566_1_alg».proof.ReferenceIdeal
import proofs.«135771_j8881992368566_1_alg».proof.Proof.Gen.KernelIdeal
import proofs.«135771_j8881992368566_1_alg».proof.Proof.Gen.ReferenceIdeal

noncomputable section

namespace Cert.Gcn

open Idealize.ShloMosaic Cert.KernelIdeal
open Cert.KernelIdeal.Facts₀

variable {F : FTy → Type} [FloatOps F]

/-- Row `r` of the edge list (`off = ![r, 0]`), flattened, followed by the self loops `0, 1, …, 99999`. -/
def endpoints (off : Fin 2 → Nat) (hs : S2x1600000.Slices off S1x1600000)
    (e : (⟨S2x1600000, .i32⟩ : BufTy).Contents (Elt F)) : (⟨S1700000, .i32⟩ : BufTy).Contents (Elt F) :=
  concatenate S1700000 0 [⟨S1600000, shapeCast S1600000 (extractStridedSlice S1x1600000 off e hs) shapeCasts_S1x1600000_S1600000⟩,
    ⟨S100000, iotaInDim S100000 32 0⟩] concatenates_S1600000_S100000_S1700000_d0

/-- The sources of all list entries. -/
def sources (e : (⟨S2x1600000, .i32⟩ : BufTy).Contents (Elt F)) : (⟨S1700000, .i32⟩ : BufTy).Contents (Elt F) :=
  endpoints (F := F) ![0, 0] slices_S2x1600000_S1x1600000_0_0 e

/-- The targets of all list entries. -/
def targets (e : (⟨S2x1600000, .i32⟩ : BufTy).Contents (Elt F)) : (⟨S1700000, .i32⟩ : BufTy).Contents (Elt F) :=
  endpoints (F := F) ![1, 0] slices_S2x1600000_S1x1600000_1_0 e

/-- An index list as a column of start indices, negative entries wrapped by the node count. -/
def wrapIndex (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- An index list as a column of scatter indices (not wrapped: a scatter drops what is out of range). -/
def column (d : (⟨S1700000, .i32⟩ : BufTy).Contents (Elt F)) : (⟨S1700000x1, .i32⟩ : BufTy).Contents (Elt F) :=
  broadcastInDim S1700000x1 ![0] bcast_S1700000_S1700000x1_0 d

/-- How many list entries target each node. -/
def degree (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32)) (column (F := F) d)
    (broadcastInDim S1700000 ![] bcast_S_S1700000 (constant S_ .f32 0x3F800000#32))

/-- `deg^(-1/2)` where the degree is positive, `0` elsewhere. -/
def invSqrtDegree (d : (⟨S1700000, .i32⟩ : BufTy).Contents (Elt F)) : (⟨S100000, .f32⟩ : BufTy).Contents (Elt F) :=
  select (cmpf .ogt (degree (F := F) d) (broadcastInDim S100000 ![] bcast_S_S100000 (constant S_ .f32 0x00000000#32)))
    (Host.rsqrt (maximumf (degree (F := F) d) (broadcastInDim S100000 ![] bcast_S_S100000 (constant S_ .f32 0x3F800000#32))))
    (broadcastInDim S100000 ![] bcast_S_S100000 (id (constant S_ .f32 0x00000000#32)))

/-- The weight of each list entry: the product of `deg^(-1/2)` at its source and at its target, as a column. -/
def edgeWeight (s d : (⟨S1700000, .i32⟩ : BufTy).Contents (Elt F)) : (⟨S1700000x1, .f32⟩ : BufTy).Contents (Elt F) :=
  broadcastInDim S1700000x1 ![0] bcast_S1700000_S1700000x1_0
    (mulf (Host.gather gather_S100000_S1700000x1_S1700000_n_0_n_n_0_1_1 (invSqrtDegree (F := F) d) (wrapIndex (F := F) s))
      (Host.gather gather_S100000_S1700000x1_S1700000_n_0_n_n_0_1_1 (invSqrtDegree (F := F) d) (wrapIndex (F := F) d)))

/-- Weighted sum over incoming entries, 128 features per node. -/
def aggregate128 (h : (⟨S100000x128, .f32⟩ : BufTy).Contents (Elt F)) (s d : (⟨S1700000, .i32⟩ : BufTy).Contents (Elt F))
    (w : (⟨S1700000x1, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32)) (column (F := F) d)
    (mulf (Host.gather gather_S100000x128_S1700000x1_S1700000x128_1_0_n_n_0_1_1128 h (wrapIndex (F := F) s))
      (broadcastInDim S1700000x128 ![0, 1] bcast_S1700000x1_S1700000x128_0_1 w))

/-- Weighted sum over incoming entries, 64 features per node. -/
def aggregate64 (h : (⟨S100000x64, .f32⟩ : BufTy).Contents (Elt F)) (s d : (⟨S1700000, .i32⟩ : BufTy).Contents (Elt F))
    (w : (⟨S1700000x1, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32)) (column (F := F) d)
    (mulf (Host.gather gather_S100000x64_S1700000x1_S1700000x64_1_0_n_n_0_1_164 h (wrapIndex (F := F) s))
      (broadcastInDim S1700000x64 ![0, 1] bcast_S1700000x1_S1700000x64_0_1 w))

/-- The first layer after its dense product `h = x · W1`: aggregate, add the bias, rectify. -/
def hidden (h : (⟨S100000x128, .f32⟩ : BufTy).Contents (Elt F)) (s d : (⟨S1700000, .i32⟩ : BufTy).Contents (Elt F))
    (w : (⟨S1700000x1, .f32⟩ : BufTy).Contents (Elt F)) (b : (⟨S128, .f32⟩ : BufTy).Contents (Elt F)) :
    (⟨S100000x128, .f32⟩ : BufTy).Contents (Elt F) :=
  maximumf (addf (aggregate128 (F := F) h s d w)
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The second layer after its dense product `h = hidden · W2`: aggregate and add the bias. -/
def output (h : (⟨S100000x64, .f32⟩ : BufTy).Contents (Elt F)) (s d : (⟨S1700000, .i32⟩ : BufTy).Contents (Elt F))
    (w : (⟨S1700000x1, .f32⟩ : BufTy).Contents (Elt F)) (b : (⟨S64, .f32⟩ : BufTy).Contents (Elt F)) :
    (⟨S100000x64, .f32⟩ : BufTy).Contents (Elt F) :=
  addf (aggregate64 (F := F) h s d w)
    (broadcastInDim S100000x64 ![0, 1] bcast_S1x64_S100000x64_0_1 (broadcastInDim S1x64 ![1] bcast_S64_S1x64_1 b))

/-- The first dense product `x · W1`, rows by columns over the 128 input features. -/
def dense1 (x : (⟨S100000x128, .f32⟩ : BufTy).Contents (Elt F)) (w : (⟨S128x128, .f32⟩ : BufTy).Contents (Elt F)) :
    (⟨S100000x128, .f32⟩ : BufTy).Contents (Elt F) :=
  Host.dotGeneral Cert.ReferenceIdeal.dot_S100000x128_S128x128_S100000x128_1_0_0_1_n_n none x w

/-- The second dense product `hidden · W2`, rows by columns over the 128 hidden features. -/
def dense2 (x : (⟨S100000x128, .f32⟩ : BufTy).Contents (Elt F)) (w : (⟨S128x64, .f32⟩ : BufTy).Contents (Elt F)) :
    (⟨S100000x64, .f32⟩ : BufTy).Contents (Elt F) :=
  Host.dotGeneral Cert.ReferenceIdeal.dot_S100000x128_S128x64_S100000x64_1_0_0_1_n_n none x w

/-- The whole network: two layers over the same normalized graph. -/
def network (x : (⟨S100000x128, .f32⟩ : BufTy).Contents (Elt F)) (e : (⟨S2x1600000, .i32⟩ : BufTy).Contents (Elt F))
    (w1 : (⟨S128x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) :
    (⟨S100000x64, .f32⟩ : BufTy).Contents (Elt F) :=
  output (F := F)
    (dense2 (F := F) (hidden (F := F) (dense1 (F := F) x w1) (sources (F := F) e) (targets (F := F) e)
      (edgeWeight (F := F) (sources (F := F) e) (targets (F := F) e)) b1) w2)
    (sources (F := F) e) (targets (F := F) e) (edgeWeight (F := F) (sources (F := F) e) (targets (F := F) e)) b2

end Cert.Gcn

end
-- ==== Proof.Contraction.lean ====
/-
  A plain matrix product read at one entry.

  For the dimension numbers of an `M×K` by `K×N` product (`DotDims.plain`: contract the left operand's
  second axis with the right operand's first, no batch axis) the contraction index has one coordinate
  `k : Fin K`, and at the result's entry `(p, q)` the two operand indices are `(p, k)` and `(k, q)`. So at
  the ideal instance both the matrix unit's product into a zero accumulator and the host's `dot_general` are the sum
  over `k` of `l (p, k) · r (k, q)` on the extended reals.
-/
import Idealize.ShloMosaic.PureOps.Ideal.Laws
import Idealize.ShloMosaic.Lib.ValueIdx

noncomputable section

open scoped BigOperators

namespace Cert.Contraction

open Idealize.ShloMosaic Idealize.ShloMosaic.ValueIdx

variable (M K N : Nat)

/-- The one-coordinate contraction index `k`. -/
abbrev kIdx (k : Fin K) : (DotDims.plain M K N).contr.Idx :=
  (contrEquiv1 (DotDims.plain M K N) K rfl rfl).symm k

/-- The left operand is read at row `p`, column `k`. -/
theorem lhsIdx_plain (p : Fin M) (q : Fin N) (k : Fin K) :
    (DotDims.plain M K N).lhsIdx (ix2 p q) (kIdx M K N k) = ix2 p k := by
  funext a; apply Fin.ext
  match a with
  | ⟨0, _⟩ =>
    show ((DotDims.plain M K N).lhsIdx (ix2 p q) (kIdx M K N k) 0).val = p.val
    unfold DotDims.lhsIdx
    rw [dif_neg (show ¬((0 : Fin (⟨2, ![M, K]⟩ : Shape).rank) ∈ (DotDims.plain M K N).lhsBatch) from fun h => nomatch h),
      dif_pos (show (0 : Fin (⟨2, ![M, K]⟩ : Shape).rank) ∈ (DotDims.plain M K N).lhsNonContracting from List.Mem.head _)]
    rfl
  | ⟨1, _⟩ =>
    exact ((DotDims.plain M K N).lhsIdx_val_of_single rfl (ix2 p q) (kIdx M K N k)).trans
      (contrEquiv1_symm_val (DotDims.plain M K N) K rfl rfl k)

/-- The right operand is read at row `k`, column `q`. -/
theorem rhsIdx_plain (p : Fin M) (q : Fin N) (k : Fin K) :
    (DotDims.plain M K N).rhsIdx (ix2 p q) (kIdx M K N k) = ix2 k q := by
  funext a; apply Fin.ext
  match a with
  | ⟨0, _⟩ =>
    exact ((DotDims.plain M K N).rhsIdx_val_of_single rfl (ix2 p q) (kIdx M K N k)).trans
      (contrEquiv1_symm_val (DotDims.plain M K N) K rfl rfl k)
  | ⟨1, _⟩ =>
    show ((DotDims.plain M K N).rhsIdx (ix2 p q) (kIdx M K N k) 1).val = q.val
    unfold DotDims.rhsIdx
    rw [dif_neg (show ¬((1 : Fin (⟨2, ![K, N]⟩ : Shape).rank) ∈ (DotDims.plain M K N).rhsBatch) from fun h => nomatch h),
      dif_pos (show (1 : Fin (⟨2, ![K, N]⟩ : Shape).rank) ∈ (DotDims.plain M K N).rhsNonContracting from List.Mem.head _)]
    rfl

/-- The matrix unit's product into a zero accumulator, at entry `(p, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain M K N p q k, rhsIdx_plain M K N p q k]

/-- The host's `dot_general`, at entry `(p, q)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain M K N p q k, rhsIdx_plain M K N p q k]

end Cert.Contraction

end
-- ==== Proof.Dense.lean ====
/-
  The two kernel regions compute the dense products.

  Each region runs over 100 grid points; point `t` stages rows `1000·t … 1000·t + 999` of the left operand and the
  whole weight matrix, multiplies them on the matrix unit into a zero accumulator (after casting both to bf16, which
  changes nothing on extended reals) and writes the product back as rows `1000·t … 1000·t + 999` of the result. Entry
  `(p, q)` of the block product is the sum over `k` of `left (1000·t + p, k) · weights (k, q)` — entry
  `(1000·t + p, q)` of the product of the whole arrays —, and the 100 row blocks tile the result, so after the region
  the result array is the whole-array product (`final0`, `final1`).
-/
import proofs.«135771_j8881992368566_1_alg».proof.Proof.Stages
import proofs.«135771_j8881992368566_1_alg».proof.Proof.Contraction
import proofs.«135771_j8881992368566_1_alg».proof.Proof.Gen.KernelIdeal.Frame
import Idealize.ShloMosaic.Lib.Pipeline.Value
import Idealize.ShloMosaic.Lib.ValueIdx

set_option maxRecDepth 16384

noncomputable section

open scoped BigOperators

namespace Cert.KernelIdeal.Dense

open Cert.KernelIdeal Cert.KernelIdeal.Gen Cert.Gcn Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-! ## Region 0: the input features times the first weight matrix -/

/-- The body's stored value at entry `(p, q)` of the block: row `p` of the row block times column `q` of the weights. -/
theorem pay0_apply (x0 : Vec Ideal S1000x128 .f32) (x1 : Vec Ideal S128x128 .f32) (p : Fin 1000) (q : Fin 128) :
    k0_pay1 (F := Ideal) x0 x1 (ix2 p q) = ∑ k : Fin 128, x0 (ix2 p k) * x1 (ix2 k q) := by
  unfold k0_pay1
  exact Cert.Contraction.matmul_plain_apply 1000 128 128 none _ _ p q

/-- The whole-array product at entry `(r, q)`. -/
theorem dense1_apply (x : (⟨S100000x128, .f32⟩ : BufTy).Contents (Elt Ideal)) (w : (⟨S128x128, .f32⟩ : BufTy).Contents (Elt Ideal))
    (r : Fin 100000) (q : Fin 128) :
    dense1 (F := Ideal) x w (ix2 r q) = ∑ k : Fin 128, x (ix2 r k) * w (ix2 k q) := by
  unfold dense1
  exact Cert.Contraction.dotGeneral_plain_apply 100000 128 128 none _ x w r q

/-- The printed index maps over the 100 grid points: the row block and the result block of point `t` are block `t`
    along the rows, the weights are the one whole block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `t·1000 + p` of the array, for a row `p` of block `t`. -/
def row0 (t : Fin cfg0.N) (p : Fin 1000) : Fin 100000 :=
  ⟨t.val * 1000 + p.val, by have ht : t.val < 100 := lt_of_lt_of_eq t.isLt N_0; have hp := p.isLt; omega⟩

/-- The row block of point `t` at `(p, k)` is the left operand's array at row `t·1000 + p`, column `k`. -/
theorem blk0_0 (c : Dev nD) (t : Fin cfg0.N) (p : Fin 1000) (k : Fin 128) :
    iblk0 (F := F) V c 0 t (ix2 p k) = V c main_arg0 (ix2 (row0 t p) k) := by
  show V c main_arg0 (((cfg0.win 0).blk t).view.emb (ix2 p k)) = V c main_arg0 (ix2 (row0 t p) k)
  obtain ⟨e0, e1, -⟩ := idx_facts0 t
  have e : ((cfg0.win 0).blk t).view.emb (ix2 p k) = ix2 (row0 t p) k := by
    funext a; apply Fin.ext
    match a with
    | ⟨0, _⟩ => show win0_0.index t (0 : Fin 2) * 1000 + 1 * p.val = t.val * 1000 + p.val; omega
    | ⟨1, _⟩ => show win0_0.index t (1 : Fin 2) * 128 + 1 * k.val = k.val; omega
  rw [e]

/-- The weights' block at any point is the whole weight matrix. -/
theorem blk0_1 (c : Dev nD) (t : Fin cfg0.N) (k : Fin 128) (q : Fin 128) :
    iblk0 (F := F) V c 1 t (ix2 k q) = V c main_arg2 (ix2 k q) := by
  show V c main_arg2 (((cfg0.win 1).blk t).view.emb (ix2 k q)) = V c main_arg2 (ix2 k q)
  obtain ⟨-, -, e2, e3, -⟩ := idx_facts0 t
  have e : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [e]

/-- Entry `(p, q)` of the result block of point `t` is entry `(t·1000 + p, q)` of the result array. -/
theorem emb0_2 (t : Fin cfg0.N) (p : Fin 1000) (q : Fin 128) :
    ((cfg0.win 2).blk t).view.emb (ix2 p q) = ix2 (row0 t p) q := by
  obtain ⟨-, -, -, -, e4, e5⟩ := idx_facts0 t
  funext a; apply Fin.ext
  match a with
  | ⟨0, _⟩ => show win0_2.index t (0 : Fin 2) * 1000 + 1 * p.val = t.val * 1000 + p.val; omega
  | ⟨1, _⟩ => show win0_2.index t (1 : Fin 2) * 128 + 1 * q.val = q.val; omega

/-- WHAT POINT `t` WRITES BACK is block `t` of the whole-array product of the arrays the region finds. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (dense1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S1000x128) hz, View.ld_unit_zero (S := S128x128) hz]
  funext j
  obtain ⟨p, q, rfl⟩ : ∃ (p : Fin 1000) (q : Fin 128), j = ix2 p q := ⟨j 0, j 1, eq_ix2 j⟩
  show k0_pay1 (F := Ideal) (iblk0 V c 0 t) (iblk0 V c 1 t) (ix2 p q)
    = dense1 (F := Ideal) (V c main_arg0) (V c main_arg2) (((cfg0.win 2).blk t).view.emb (ix2 p q))
  rw [emb0_2 t p q]
  refine (pay0_apply _ _ p q).trans ?_
  refine Eq.trans ?_ (dense1_apply _ _ (row0 t p) q).symm
  refine Finset.sum_congr rfl fun k _ => ?_
  rw [blk0_0 V c t p k, blk0_1 V c t k q]

/-- An index of the result array is in point `t`'s block iff each coordinate is in the block's range on its axis. -/
theorem mem_blk0 (t : Fin cfg0.N) (i : S100000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v33).slice (win0_2.rect t)).set ↔ _
  rw [View.set_slice_whole, Rect.mem_set_unit]
  exact Iff.rfl

/-- Row `r` of the result array is written by the point `r / 1000`: the blocks tile the array. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 100 := N_0
  obtain ⟨t, ht⟩ : ∃ t : Fin cfg0.N, t.val = (i 0).val / 1000 := ⟨⟨(i 0).val / 1000, by rw [hN]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 128 ≤ (i 1).val ∧ (i 1).val < win0_2.index t (1 : Fin 2) * 128 + 128; omega

/-- THE RESULT ARRAY after the region: the whole-array product of the two arrays the region finds. -/
theorem final0 (V : (c : Dev nD) → (b : Ref sig .tc) → Buf (Elt Ideal) ((c : Thread nD τ).loc b)) (c : Dev nD) :
    (dat0 (F := Ideal) V c).arrAt 2 cfg0.N = dense1 (F := Ideal) (V c main_arg0) (V c main_arg2) :=
  (dat0 (F := Ideal) V c).arrAt_eq_of_cover 2 _ (fun t _ => flushed0_eq V c t) cover0

/-! ## Region 1: the hidden features times the second weight matrix -/

/-- The body's stored value at entry `(p, q)` of the block: row `p` of the row block times column `q` of the weights (the cast to the same shape in front of it is the identity). -/
theorem pay1_apply (x0 : Vec Ideal S1000x128 .f32) (x1 : Vec Ideal S128x64 .f32) (p : Fin 1000) (q : Fin 64) :
    k1_pay1 (F := Ideal) x0 x1 (ix2 p q) = ∑ k : Fin 128, x0 (ix2 p k) * x1 (ix2 k q) := by
  unfold k1_pay1
  rw [shapeCast_self]
  exact Cert.Contraction.matmul_plain_apply 1000 128 64 none _ _ p q

/-- The whole-array product at entry `(r, q)`. -/
theorem dense2_apply (x : (⟨S100000x128, .f32⟩ : BufTy).Contents (Elt Ideal)) (w : (⟨S128x64, .f32⟩ : BufTy).Contents (Elt Ideal))
    (r : Fin 100000) (q : Fin 64) :
    dense2 (F := Ideal) x w (ix2 r q) = ∑ k : Fin 128, x (ix2 r k) * w (ix2 k q) := by
  unfold dense2
  exact Cert.Contraction.dotGeneral_plain_apply 100000 128 64 none _ x w r q

/-- The printed index maps over the 100 grid points: the row block and the result block of point `t` are block `t`
    along the rows, the weights are the one whole block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `t·1000 + p` of the array, for a row `p` of block `t`. -/
def row1 (t : Fin cfg1.N) (p : Fin 1000) : Fin 100000 :=
  ⟨t.val * 1000 + p.val, by have ht : t.val < 100 := lt_of_lt_of_eq t.isLt N_1; have hp := p.isLt; omega⟩

/-- The row block of point `t` at `(p, k)` is the left operand's array at row `t·1000 + p`, column `k`. -/
theorem blk1_0 (c : Dev nD) (t : Fin cfg1.N) (p : Fin 1000) (k : Fin 128) :
    iblk1 (F := F) V c 0 t (ix2 p k) = V c main_v49 (ix2 (row1 t p) k) := by
  show V c main_v49 (((cfg1.win 0).blk t).view.emb (ix2 p k)) = V c main_v49 (ix2 (row1 t p) k)
  obtain ⟨e0, e1, -⟩ := idx_facts1 t
  have e : ((cfg1.win 0).blk t).view.emb (ix2 p k) = ix2 (row1 t p) k := by
    funext a; apply Fin.ext
    match a with
    | ⟨0, _⟩ => show win1_0.index t (0 : Fin 2) * 1000 + 1 * p.val = t.val * 1000 + p.val; omega
    | ⟨1, _⟩ => show win1_0.index t (1 : Fin 2) * 128 + 1 * k.val = k.val; omega
  rw [e]

/-- The weights' block at any point is the whole weight matrix. -/
theorem blk1_1 (c : Dev nD) (t : Fin cfg1.N) (k : Fin 128) (q : Fin 64) :
    iblk1 (F := F) V c 1 t (ix2 k q) = V c main_arg4 (ix2 k q) := by
  show V c main_arg4 (((cfg1.win 1).blk t).view.emb (ix2 k q)) = V c main_arg4 (ix2 k q)
  obtain ⟨-, -, e2, e3, -⟩ := idx_facts1 t
  have e : ((cfg1.win 1).blk t).view.emb (ix2 k q) = ix2 k q := by
    funext a; apply Fin.ext
    match a with
    | ⟨0, _⟩ => show win1_1.index t (0 : Fin 2) * 128 + 1 * k.val = k.val; omega
    | ⟨1, _⟩ => show win1_1.index t (1 : Fin 2) * 64 + 1 * q.val = q.val; omega
  rw [e]

/-- Entry `(p, q)` of the result block of point `t` is entry `(t·1000 + p, q)` of the result array. -/
theorem emb1_2 (t : Fin cfg1.N) (p : Fin 1000) (q : Fin 64) :
    ((cfg1.win 2).blk t).view.emb (ix2 p q) = ix2 (row1 t p) q := by
  obtain ⟨-, -, -, -, e4, e5⟩ := idx_facts1 t
  funext a; apply Fin.ext
  match a with
  | ⟨0, _⟩ => show win1_2.index t (0 : Fin 2) * 1000 + 1 * p.val = t.val * 1000 + p.val; omega
  | ⟨1, _⟩ => show win1_2.index t (1 : Fin 2) * 64 + 1 * q.val = q.val; omega

/-- WHAT POINT `t` WRITES BACK is block `t` of the whole-array product of the arrays the region finds. -/
theorem flushed1_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (dense2 (F := Ideal) (V c main_v49) (V c main_arg4)) := by
  show (cfg1.win 2).cut (grid1.coords t) ((dat1 V c).after 2 t) = _
  rw [after1_2]
  unfold out1_2
  rw [View.canon_unit_zero hz]
  simp only [View.ld_unit_zero (S := S1000x128) hz, View.ld_unit_zero (S := S128x64) hz]
  funext j
  obtain ⟨p, q, rfl⟩ : ∃ (p : Fin 1000) (q : Fin 64), j = ix2 p q := ⟨j 0, j 1, eq_ix2 j⟩
  show k1_pay1 (F := Ideal) (iblk1 V c 0 t) (iblk1 V c 1 t) (ix2 p q)
    = dense2 (F := Ideal) (V c main_v49) (V c main_arg4) (((cfg1.win 2).blk t).view.emb (ix2 p q))
  rw [emb1_2 t p q]
  refine (pay1_apply _ _ p q).trans ?_
  refine Eq.trans ?_ (dense2_apply _ _ (row1 t p) q).symm
  refine Finset.sum_congr rfl fun k _ => ?_
  rw [blk1_0 V c t p k, blk1_1 V c t k q]

/-- An index of the result array is in point `t`'s block iff each coordinate is in the block's range on its axis. -/
theorem mem_blk1 (t : Fin cfg1.N) (i : S100000x64.Idx) :
    i ∈ ((cfg1.win 2).blk t).view.set ↔ ∀ a : Fin 2, win1_2.index t a * S1000x64.size a ≤ (i a).val ∧ (i a).val < win1_2.index t a * S1000x64.size a + S1000x64.size a := by
  show i ∈ ((View.whole main_v50).slice (win1_2.rect t)).set ↔ _
  rw [View.set_slice_whole, Rect.mem_set_unit]
  exact Iff.rfl

/-- Row `r` of the result array is written by the point `r / 1000`: the blocks tile the array. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 100 := N_1
  obtain ⟨t, ht⟩ : ∃ t : Fin cfg1.N, t.val = (i 0).val / 1000 := ⟨⟨(i 0).val / 1000, by rw [hN]; omega⟩, rfl⟩
  obtain ⟨-, -, -, -, e4, e5⟩ := idx_facts1 t
  refine ⟨t, flush1_2 t, ?_⟩
  rw [mem_blk1]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 64 ≤ (i 1).val ∧ (i 1).val < win1_2.index t (1 : Fin 2) * 64 + 64; omega

/-- THE RESULT ARRAY after the region: the whole-array product of the two arrays the region finds. -/
theorem final1 (V : (c : Dev nD) → (b : Ref sig .tc) → Buf (Elt Ideal) ((c : Thread nD τ).loc b)) (c : Dev nD) :
    (dat1 (F := Ideal) V c).arrAt 2 cfg1.N = dense2 (F := Ideal) (V c main_v49) (V c main_arg4) :=
  (dat1 (F := Ideal) V c).arrAt_eq_of_cover 2 _ (fun t _ => flushed1_eq V c t) cover1

end Cert.KernelIdeal.Dense

end
-- ==== Proof.KernelHost.lean ====
/-
  The kernel program's host operations, read back as the graph convolution's stage functions.

  The program's host side is three groups of operations: before the first dense product (the endpoint lists and the
  edge weights, from the edge list alone), between the two dense products (the first layer's aggregation, bias and
  rectifier), and after the second (the second layer's aggregation and bias). Each lemma reads one buffer after a
  group, from ANY buffer contents `X` before it: a buffer the group computes is the stage function of the buffers
  it reads, a buffer it does not write is as it was.
-/
import proofs.«135771_j8881992368566_1_alg».proof.Proof.Stages
import proofs.«135771_j8881992368566_1_alg».proof.Proof.Gen.KernelIdeal.Launch
import Idealize.ShloMosaic.Lib.StableHlo.Run

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen Cert.Gcn

variable {F : FTy → Type} [FloatOps F]
variable (X : Valuation τ sig (Elt F))

/-! ## Before the first dense product: the graph's structure, from the edge list -/

theorem pre_sources :
    after hostOps0_2 (after hostOps0_1 (after hostOps0 X)) (Proc.devRef .tc main_v3)
      = sources (F := F) (X (Proc.devRef .tc main_arg1)) := by
  after_results
  rfl

theorem pre_targets :
    after hostOps0_2 (after hostOps0_1 (after hostOps0 X)) (Proc.devRef .tc main_v6)
      = targets (F := F) (X (Proc.devRef .tc main_arg1)) := by
  after_results
  rfl

set_option maxHeartbeats 4000000 in
theorem pre_weight :
    after hostOps0_2 (after hostOps0_1 (after hostOps0 X)) (Proc.devRef .tc main_v32)
      = edgeWeight (F := F) (sources (F := F) (X (Proc.devRef .tc main_arg1))) (targets (F := F) (X (Proc.devRef .tc main_arg1))) := by
  after_results
  rfl

theorem pre_keep_arg0 :
    after hostOps0_2 (after hostOps0_1 (after hostOps0 X)) (Proc.devRef .tc main_arg0) = X (Proc.devRef .tc main_arg0) := by
  after_results

theorem pre_keep_arg2 :
    after hostOps0_2 (after hostOps0_1 (after hostOps0 X)) (Proc.devRef .tc main_arg2) = X (Proc.devRef .tc main_arg2) := by
  after_results

theorem pre_keep_arg3 :
    after hostOps0_2 (after hostOps0_1 (after hostOps0 X)) (Proc.devRef .tc main_arg3) = X (Proc.devRef .tc main_arg3) := by
  after_results

theorem pre_keep_arg4 :
    after hostOps0_2 (after hostOps0_1 (after hostOps0 X)) (Proc.devRef .tc main_arg4) = X (Proc.devRef .tc main_arg4) := by
  after_results

theorem pre_keep_arg5 :
    after hostOps0_2 (after hostOps0_1 (after hostOps0 X)) (Proc.devRef .tc main_arg5) = X (Proc.devRef .tc main_arg5) := by
  after_results

/-! ## Between the dense products: the first layer after its product -/

set_option maxHeartbeats 4000000 in
theorem mid_hidden :
    after hostOps1_1 (after hostOps1 X) (Proc.devRef .tc main_v49)
      = hidden (F := F) (X (Proc.devRef .tc main_v33)) (X (Proc.devRef .tc main_v3)) (X (Proc.devRef .tc main_v6))
          (X (Proc.devRef .tc main_v32)) (X (Proc.devRef .tc main_arg3)) := by
  after_results
  rfl

theorem mid_keep_v3 :
    after hostOps1_1 (after hostOps1 X) (Proc.devRef .tc main_v3) = X (Proc.devRef .tc main_v3) := by
  after_results

theorem mid_keep_v6 :
    after hostOps1_1 (after hostOps1 X) (Proc.devRef .tc main_v6) = X (Proc.devRef .tc main_v6) := by
  after_results

theorem mid_keep_v32 :
    after hostOps1_1 (after hostOps1 X) (Proc.devRef .tc main_v32) = X (Proc.devRef .tc main_v32) := by
  after_results

theorem mid_keep_arg4 :
    after hostOps1_1 (after hostOps1 X) (Proc.devRef .tc main_arg4) = X (Proc.devRef .tc main_arg4) := by
  after_results

theorem mid_keep_arg5 :
    after hostOps1_1 (after hostOps1 X) (Proc.devRef .tc main_arg5) = X (Proc.devRef .tc main_arg5) := by
  after_results

/-! ## After the second dense product: the second layer after its product -/

set_option maxHeartbeats 4000000 in
theorem tail_output :
    after hostOps2 X (Proc.devRef .tc main_v65)
      = output (F := F) (X (Proc.devRef .tc main_v50)) (X (Proc.devRef .tc main_v3)) (X (Proc.devRef .tc main_v6))
          (X (Proc.devRef .tc main_v32)) (X (Proc.devRef .tc main_arg5)) := by
  after_results
  rfl

end Cert.KernelIdeal.HostRead

end
-- ==== Proof.KernelValue.lean ====
/-
  The kernel program's result, followed through its run.

  The run's buffer contents at the boundaries between host groups and kernel regions are a fold from the launch
  memory. Followed boundary by boundary: after the first host group the endpoint lists and the edge weights are the
  stage functions of the edge list, and the arguments are untouched; the first region leaves `x · W1` in its result
  array and nothing else changes; the second host group leaves the hidden features; the second region leaves
  `hidden · W2`; the last host group leaves `network` of the six arguments in the result buffer (`W8_result`).
  `run` is the program's run with that value and the unchanged arguments in its post.
-/
import proofs.«135771_j8881992368566_1_alg».proof.Proof.Dense
import proofs.«135771_j8881992368566_1_alg».proof.Proof.KernelHost
import proofs.«135771_j8881992368566_1_alg».proof.Proof.KernelRunPatched

set_option maxRecDepth 16384

noncomputable section

namespace Cert.KernelIdeal.RunValue

open Idealize.ShloMosaic Idealize.ShloMosaic.TcCoe Idealize.SL.Sem
open Cert.KernelIdeal Cert.KernelIdeal.Gen Cert.Gcn

variable (m : (ℓ : Loc nD τ sig) → Buf (Elt Ideal) ℓ) (ρ : Dev nD → PrngReg) (c : Dev nD)

/-! ## At the first region's entry -/

theorem W3_sources : W3 m ρ c (Proc.devRef .tc main_v3) = (sources (F := Ideal) (m ((c : Thread nD τ).loc main_arg1))) := HostRead.pre_sources (W0 m ρ c)
theorem W3_targets : W3 m ρ c (Proc.devRef .tc main_v6) = (targets (F := Ideal) (m ((c : Thread nD τ).loc main_arg1))) := HostRead.pre_targets (W0 m ρ c)
theorem W3_weight : W3 m ρ c (Proc.devRef .tc main_v32) = (edgeWeight (F := Ideal) (sources (F := Ideal) (m ((c : Thread nD τ).loc main_arg1))) (targets (F := Ideal) (m ((c : Thread nD τ).loc main_arg1)))) := HostRead.pre_weight (W0 m ρ c)
theorem W3_arg0 : W3 m ρ c (Proc.devRef .tc main_arg0) = m ((c : Thread nD τ).loc main_arg0) := HostRead.pre_keep_arg0 (W0 m ρ c)
theorem W3_arg2 : W3 m ρ c (Proc.devRef .tc main_arg2) = m ((c : Thread nD τ).loc main_arg2) := HostRead.pre_keep_arg2 (W0 m ρ c)
theorem W3_arg3 : W3 m ρ c (Proc.devRef .tc main_arg3) = m ((c : Thread nD τ).loc main_arg3) := HostRead.pre_keep_arg3 (W0 m ρ c)
theorem W3_arg4 : W3 m ρ c (Proc.devRef .tc main_arg4) = m ((c : Thread nD τ).loc main_arg4) := HostRead.pre_keep_arg4 (W0 m ρ c)
theorem W3_arg5 : W3 m ρ c (Proc.devRef .tc main_arg5) = m ((c : Thread nD τ).loc main_arg5) := HostRead.pre_keep_arg5 (W0 m ρ c)

/-! ## At the first region's exit -/

theorem W4_product : W4 m ρ c (Proc.devRef .tc main_v33) = (dense1 (F := Ideal) (m ((c : Thread nD τ).loc main_arg0)) (m ((c : Thread nD τ).loc main_arg2))) := by
  refine (W4_arr m ρ c 2).trans ((Dense.final0 (V3 m ρ) c).trans ?_)
  have h0 : V3 m ρ c main_arg0 = m ((c : Thread nD τ).loc main_arg0) := W3_arg0 m ρ c
  have h2 : V3 m ρ c main_arg2 = m ((c : Thread nD τ).loc main_arg2) := W3_arg2 m ρ c
  rw [h0, h2]

theorem W4_sources : W4 m ρ c (Proc.devRef .tc main_v3) = (sources (F := Ideal) (m ((c : Thread nD τ).loc main_arg1))) := (W4_of_ne m ρ c main_v3 (by decide)).trans (W3_sources m ρ c)
theorem W4_targets : W4 m ρ c (Proc.devRef .tc main_v6) = (targets (F := Ideal) (m ((c : Thread nD τ).loc main_arg1))) := (W4_of_ne m ρ c main_v6 (by decide)).trans (W3_targets m ρ c)
theorem W4_weight : W4 m ρ c (Proc.devRef .tc main_v32) = (edgeWeight (F := Ideal) (sources (F := Ideal) (m ((c : Thread nD τ).loc main_arg1))) (targets (F := Ideal) (m ((c : Thread nD τ).loc main_arg1)))) := (W4_of_ne m ρ c main_v32 (by decide)).trans (W3_weight m ρ c)
theorem W4_arg3 : W4 m ρ c (Proc.devRef .tc main_arg3) = m ((c : Thread nD τ).loc main_arg3) := (W4_of_ne m ρ c main_arg3 (by decide)).trans (W3_arg3 m ρ c)
theorem W4_arg4 : W4 m ρ c (Proc.devRef .tc main_arg4) = m ((c : Thread nD τ).loc main_arg4) := (W4_of_ne m ρ c main_arg4 (by decide)).trans (W3_arg4 m ρ c)
theorem W4_arg5 : W4 m ρ c (Proc.devRef .tc main_arg5) = m ((c : Thread nD τ).loc main_arg5) := (W4_of_ne m ρ c main_arg5 (by decide)).trans (W3_arg5 m ρ c)

/-! ## At the second region's entry -/

theorem W6_hidden : W6 m ρ c (Proc.devRef .tc main_v49) = (hidden (F := Ideal) (dense1 (F := Ideal) (m ((c : Thread nD τ).loc main_arg0)) (m ((c : Thread nD τ).loc main_arg2))) (sources (F := Ideal) (m ((c : Thread nD τ).loc main_arg1))) (targets (F := Ideal) (m ((c : Thread nD τ).loc main_arg1))) (edgeWeight (F := Ideal) (sources (F := Ideal) (m ((c : Thread nD τ).loc main_arg1))) (targets (F := Ideal) (m ((c : Thread nD τ).loc main_arg1)))) (m ((c : Thread nD τ).loc main_arg3))) := by
  refine (HostRead.mid_hidden (W4 m ρ c)).trans ?_
  rw [W4_product m ρ c, W4_sources m ρ c, W4_targets m ρ c, W4_weight m ρ c, W4_arg3 m ρ c]

theorem W6_sources : W6 m ρ c (Proc.devRef .tc main_v3) = (sources (F := Ideal) (m ((c : Thread nD τ).loc main_arg1))) := (HostRead.mid_keep_v3 (W4 m ρ c)).trans (W4_sources m ρ c)
theorem W6_targets : W6 m ρ c (Proc.devRef .tc main_v6) = (targets (F := Ideal) (m ((c : Thread nD τ).loc main_arg1))) := (HostRead.mid_keep_v6 (W4 m ρ c)).trans (W4_targets m ρ c)
theorem W6_weight : W6 m ρ c (Proc.devRef .tc main_v32) = (edgeWeight (F := Ideal) (sources (F := Ideal) (m ((c : Thread nD τ).loc main_arg1))) (targets (F := Ideal) (m ((c : Thread nD τ).loc main_arg1)))) := (HostRead.mid_keep_v32 (W4 m ρ c)).trans (W4_weight m ρ c)
theorem W6_arg4 : W6 m ρ c (Proc.devRef .tc main_arg4) = m ((c : Thread nD τ).loc main_arg4) := (HostRead.mid_keep_arg4 (W4 m ρ c)).trans (W4_arg4 m ρ c)
theorem W6_arg5 : W6 m ρ c (Proc.devRef .tc main_arg5) = m ((c : Thread nD τ).loc main_arg5) := (HostRead.mid_keep_arg5 (W4 m ρ c)).trans (W4_arg5 m ρ c)

/-! ## At the second region's exit -/

theorem W7_product : W7 m ρ c (Proc.devRef .tc main_v50) = (dense2 (F := Ideal) (hidden (F := Ideal) (dense1 (F := Ideal) (m ((c : Thread nD τ).loc main_arg0)) (m ((c : Thread nD τ).loc main_arg2))) (sources (F := Ideal) (m ((c : Thread nD τ).loc main_arg1))) (targets (F := Ideal) (m ((c : Thread nD τ).loc main_arg1))) (edgeWeight (F := Ideal) (sources (F := Ideal) (m ((c : Thread nD τ).loc main_arg1))) (targets (F := Ideal) (m ((c : Thread nD τ).loc main_arg1)))) (m ((c : Thread nD τ).loc main_arg3))) (m ((c : Thread nD τ).loc main_arg4))) := by
  refine (W7_arr m ρ c 2).trans ((Dense.final1 (V6 m ρ) c).trans ?_)
  have h0 : V6 m ρ c main_v49 = (hidden (F := Ideal) (dense1 (F := Ideal) (m ((c : Thread nD τ).loc main_arg0)) (m ((c : Thread nD τ).loc main_arg2))) (sources (F := Ideal) (m ((c : Thread nD τ).loc main_arg1))) (targets (F := Ideal) (m ((c : Thread nD τ).loc main_arg1))) (edgeWeight (F := Ideal) (sources (F := Ideal) (m ((c : Thread nD τ).loc main_arg1))) (targets (F := Ideal) (m ((c : Thread nD τ).loc main_arg1)))) (m ((c : Thread nD τ).loc main_arg3))) := W6_hidden m ρ c
  have h4 : V6 m ρ c main_arg4 = m ((c : Thread nD τ).loc main_arg4) := W6_arg4 m ρ c
  rw [h0, h4]

theorem W7_sources : W7 m ρ c (Proc.devRef .tc main_v3) = (sources (F := Ideal) (m ((c : Thread nD τ).loc main_arg1))) := (W7_of_ne m ρ c main_v3 (by decide)).trans (W6_sources m ρ c)
theorem W7_targets : W7 m ρ c (Proc.devRef .tc main_v6) = (targets (F := Ideal) (m ((c : Thread nD τ).loc main_arg1))) := (W7_of_ne m ρ c main_v6 (by decide)).trans (W6_targets m ρ c)
theorem W7_weight : W7 m ρ c (Proc.devRef .tc main_v32) = (edgeWeight (F := Ideal) (sources (F := Ideal) (m ((c : Thread nD τ).loc main_arg1))) (targets (F := Ideal) (m ((c : Thread nD τ).loc main_arg1)))) := (W7_of_ne m ρ c main_v32 (by decide)).trans (W6_weight m ρ c)
theorem W7_arg5 : W7 m ρ c (Proc.devRef .tc main_arg5) = m ((c : Thread nD τ).loc main_arg5) := (W7_of_ne m ρ c main_arg5 (by decide)).trans (W6_arg5 m ρ c)

/-! ## At the return -/

/-- The result buffer at the return holds the network's value at the launch contents of the six arguments. -/
theorem W8_result : W8 m ρ c (Proc.devRef .tc main_v65) = network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (HostRead.tail_output (W7 m ρ c)).trans ?_
  rw [W7_product m ρ c, W7_sources m ρ c, W7_targets m ρ c, W7_weight m ρ c, W7_arg5 m ρ c]
  rfl

/-! ## The run -/

/-- Every weakly fair execution of the kernel program terminates with the result buffer at the network's value of the
    arguments' launch contents, and the arguments unchanged. -/
theorem run : θ_run defs (onTc (τ := τ) (main (F := Ideal))) ⟨m, fun _ => 0, ρ⟩ (fun r => ∀ c : Dev nD,
      r.2.mem ((c : Thread nD τ).loc main_v65) = network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c =>
      ⟨(h c _ (mem_uc main_v65 (by decide))).trans (W8_result m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)
    (Cert.KernelIdeal.GenP.run_all m ρ)

end Cert.KernelIdeal.RunValue

end
-- ==== Proof.RefHost.lean ====
/-
  The reference program's operations, read back as the graph convolution's stage functions.

  The reference is one line of host operations. Cut where the kernel program has its two dense products as kernel
  regions, it is: the graph's structure from the edge list; the first dense product (one `dot_general`); the first
  layer's aggregation, bias and rectifier; the second dense product (one `dot_general`); the second layer's
  aggregation and bias. Read from any buffer contents `X`, each group computes the same stage function of the
  buffers it reads as the kernel program's corresponding group, and the two `dot_general`s are the whole-array
  products `dense1`, `dense2`. Composed (`result`), the result buffer after the whole line is `network` of the six
  argument buffers.
-/
import proofs.«135771_j8881992368566_1_alg».proof.Proof.Stages
import proofs.«135771_j8881992368566_1_alg».proof.Proof.RefOpsPatched

set_option maxRecDepth 16384

noncomputable section

namespace Cert.ReferenceIdeal.HostRead

open Idealize.ShloMosaic Idealize.ShloMosaic.TcCoe Idealize.SL.Sem Idealize.ShloMosaic.StableHlo
open Cert.ReferenceIdeal Cert.ReferenceIdeal.ValueP Cert.Gcn

variable {F : FTy → Type} [FloatOps F]
variable (X : Valuation τ sig (Elt F))

/-! ## The graph's structure, from the edge list -/

theorem pre_sources :
    after ops0_2 (after ops0_1 (after ops0 X)) (Proc.devRef .tc main_v3) = sources (F := F) (X (Proc.devRef .tc main_arg1)) := by
  after_results
  rfl

theorem pre_targets :
    after ops0_2 (after ops0_1 (after ops0 X)) (Proc.devRef .tc main_v6) = targets (F := F) (X (Proc.devRef .tc main_arg1)) := by
  after_results
  rfl

set_option maxHeartbeats 4000000 in
theorem pre_weight :
    after ops0_2 (after ops0_1 (after ops0 X)) (Proc.devRef .tc main_v32)
      = edgeWeight (F := F) (sources (F := F) (X (Proc.devRef .tc main_arg1))) (targets (F := F) (X (Proc.devRef .tc main_arg1))) := by
  after_results
  rfl

theorem pre_keep_arg0 :
    after ops0_2 (after ops0_1 (after ops0 X)) (Proc.devRef .tc main_arg0) = X (Proc.devRef .tc main_arg0) := by
  after_results

theorem pre_keep_arg2 :
    after ops0_2 (after ops0_1 (after ops0 X)) (Proc.devRef .tc main_arg2) = X (Proc.devRef .tc main_arg2) := by
  after_results

theorem pre_keep_arg3 :
    after ops0_2 (after ops0_1 (after ops0 X)) (Proc.devRef .tc main_arg3) = X (Proc.devRef .tc main_arg3) := by
  after_results

theorem pre_keep_arg4 :
    after ops0_2 (after ops0_1 (after ops0 X)) (Proc.devRef .tc main_arg4) = X (Proc.devRef .tc main_arg4) := by
  after_results

theorem pre_keep_arg5 :
    after ops0_2 (after ops0_1 (after ops0 X)) (Proc.devRef .tc main_arg5) = X (Proc.devRef .tc main_arg5) := by
  after_results

/-! ## The first dense product -/

theorem dot1_v33 : dot1.result X (Proc.devRef .tc main_v33) = dense1 (F := F) (X (Proc.devRef .tc main_arg0)) (X (Proc.devRef .tc main_arg2)) := by
  rw [binary_result]
  rfl

theorem dot1_keep {b : Ref sig .tc} (h : b ≠ main_v33) : dot1.result X (Proc.devRef .tc b) = X (Proc.devRef .tc b) := by
  rw [binary_result_ne]
  exact h

/-! ## The first layer after its product -/

set_option maxHeartbeats 4000000 in
theorem mid_hidden :
    after ops1_1 (after ops1 X) (Proc.devRef .tc main_v49)
      = hidden (F := F) (X (Proc.devRef .tc main_v33)) (X (Proc.devRef .tc main_v3)) (X (Proc.devRef .tc main_v6))
          (X (Proc.devRef .tc main_v32)) (X (Proc.devRef .tc main_arg3)) := by
  after_results
  rfl

theorem mid_keep_v3 :
    after ops1_1 (after ops1 X) (Proc.devRef .tc main_v3) = X (Proc.devRef .tc main_v3) := by
  after_results

theorem mid_keep_v6 :
    after ops1_1 (after ops1 X) (Proc.devRef .tc main_v6) = X (Proc.devRef .tc main_v6) := by
  after_results

theorem mid_keep_v32 :
    after ops1_1 (after ops1 X) (Proc.devRef .tc main_v32) = X (Proc.devRef .tc main_v32) := by
  after_results

theorem mid_keep_arg4 :
    after ops1_1 (after ops1 X) (Proc.devRef .tc main_arg4) = X (Proc.devRef .tc main_arg4) := by
  after_results

theorem mid_keep_arg5 :
    after ops1_1 (after ops1 X) (Proc.devRef .tc main_arg5) = X (Proc.devRef .tc main_arg5) := by
  after_results

/-! ## The second dense product -/

theorem dot2_v50 : dot2.result X (Proc.devRef .tc main_v50) = dense2 (F := F) (X (Proc.devRef .tc main_v49)) (X (Proc.devRef .tc main_arg4)) := by
  rw [binary_result]
  rfl

theorem dot2_keep {b : Ref sig .tc} (h : b ≠ main_v50) : dot2.result X (Proc.devRef .tc b) = X (Proc.devRef .tc b) := by
  rw [binary_result_ne]
  exact h

/-! ## The second layer after its product -/

set_option maxHeartbeats 4000000 in
theorem tail_output :
    after ops2 X (Proc.devRef .tc main_v65)
      = output (F := F) (X (Proc.devRef .tc main_v50)) (X (Proc.devRef .tc main_v3)) (X (Proc.devRef .tc main_v6))
          (X (Proc.devRef .tc main_v32)) (X (Proc.devRef .tc main_arg5)) := by
  after_results
  rfl

/-! ## The whole line -/

/-- After all 85 operations the result buffer holds the network's value at the six argument buffers. -/
theorem result :
    after ops X (Proc.devRef .tc main_v65)
      = network (F := F) (X (Proc.devRef .tc main_arg0)) (X (Proc.devRef .tc main_arg1)) (X (Proc.devRef .tc main_arg2))
          (X (Proc.devRef .tc main_arg3)) (X (Proc.devRef .tc main_arg4)) (X (Proc.devRef .tc main_arg5)) := by
  show after (ops0 ++ (ops0_1 ++ (ops0_2 ++ (dot1 :: (ops1 ++ (ops1_1 ++ (dot2 :: ops2))))))) X (Proc.devRef .tc main_v65) = _
  rw [Idealize.ShloMosaic.StableHlo.after_append, Idealize.ShloMosaic.StableHlo.after_append,
    Idealize.ShloMosaic.StableHlo.after_append, after_cons, Idealize.ShloMosaic.StableHlo.after_append,
    Idealize.ShloMosaic.StableHlo.after_append, after_cons]
  rw [tail_output]
  rw [dot2_v50, dot2_keep _ (by decide : main_v3 ≠ main_v50), dot2_keep _ (by decide : main_v6 ≠ main_v50),
    dot2_keep _ (by decide : main_v32 ≠ main_v50), dot2_keep _ (by decide : main_arg5 ≠ main_v50)]
  rw [mid_hidden, mid_keep_v3, mid_keep_v6, mid_keep_v32, mid_keep_arg4, mid_keep_arg5]
  rw [dot1_v33, dot1_keep _ (by decide : main_v3 ≠ main_v33), dot1_keep _ (by decide : main_v6 ≠ main_v33),
    dot1_keep _ (by decide : main_v32 ≠ main_v33), dot1_keep _ (by decide : main_arg3 ≠ main_v33),
    dot1_keep _ (by decide : main_arg4 ≠ main_v33), dot1_keep _ (by decide : main_arg5 ≠ main_v33)]
  rw [pre_sources, pre_targets, pre_weight, pre_keep_arg0, pre_keep_arg2, pre_keep_arg3, pre_keep_arg4, pre_keep_arg5]
  rfl

/-! ## No operation writes an argument -/

theorem kept_arg0 : after ops X (Proc.devRef .tc main_arg0) = X (Proc.devRef .tc main_arg0) := by
  simp only [ops, ops0, ops0_1, ops0_2, dot1, ops1, ops1_1, dot2, ops2, List.cons_append, List.nil_append]
  after_results

theorem kept_arg1 : after ops X (Proc.devRef .tc main_arg1) = X (Proc.devRef .tc main_arg1) := by
  simp only [ops, ops0, ops0_1, ops0_2, dot1, ops1, ops1_1, dot2, ops2, List.cons_append, List.nil_append]
  after_results

theorem kept_arg2 : after ops X (Proc.devRef .tc main_arg2) = X (Proc.devRef .tc main_arg2) := by
  simp only [ops, ops0, ops0_1, ops0_2, dot1, ops1, ops1_1, dot2, ops2, List.cons_append, List.nil_append]
  after_results

theorem kept_arg3 : after ops X (Proc.devRef .tc main_arg3) = X (Proc.devRef .tc main_arg3) := by
  simp only [ops, ops0, ops0_1, ops0_2, dot1, ops1, ops1_1, dot2, ops2, List.cons_append, List.nil_append]
  after_results

theorem kept_arg4 : after ops X (Proc.devRef .tc main_arg4) = X (Proc.devRef .tc main_arg4) := by
  simp only [ops, ops0, ops0_1, ops0_2, dot1, ops1, ops1_1, dot2, ops2, List.cons_append, List.nil_append]
  after_results

theorem kept_arg5 : after ops X (Proc.devRef .tc main_arg5) = X (Proc.devRef .tc main_arg5) := by
  simp only [ops, ops0, ops0_1, ops0_2, dot1, ops1, ops1_1, dot2, ops2, List.cons_append, List.nil_append]
  after_results

end Cert.ReferenceIdeal.HostRead

end
-- ==== Proof.lean ====
/-
  Two layers of graph convolution: the kernel program against its jnp reference, equal at the ideal instance.

  Both programs build the same normalized graph from the edge list (self loops added, the symmetric
  `deg^(-1/2)` weights) and run two layers `aggregate (h · W) + b`, the first followed by the rectifier. They differ
  in one thing: the reference computes the two dense products `x · W1` and `hidden · W2` with `dot_general` on whole
  arrays, the kernel program computes each in a kernel region, 1000 rows at a time, casting both operands to bf16
  and multiplying on the matrix unit into a zero accumulator. On extended reals the cast is the identity and both
  products are the same sums `∑ k, left (r, k) · right (k, q)`, entry by entry, and the row blocks tile the result
  (Proof/Dense.lean over Proof/Contraction.lean). Everything else is the same operations in the same order on both
  sides, read back as the same stage functions (Proof/Stages.lean; Proof/KernelHost.lean and Proof/RefHost.lean), so
  both result buffers hold `Cert.Gcn.network` of the six arguments (Proof/KernelValue.lean, `RefHost.result`). No
  law of arithmetic is used beyond that identification, so finiteness of the inputs is not needed: the precondition
  is never opened. The ideal pass rewrote nothing in the kernel program, so `preserves` has no conjunct.
-/
import proofs.«135771_j8881992368566_1_alg».proof.Defs
import proofs.«135771_j8881992368566_1_alg».proof.Proof.Gen.Kernel
import proofs.«135771_j8881992368566_1_alg».proof.Proof.Gen.Kernel.Skeleton
import proofs.«135771_j8881992368566_1_alg».proof.Proof.Gen.Kernel.Launch
import proofs.«135771_j8881992368566_1_alg».proof.Proof.Gen.Kernel.Points
import proofs.«135771_j8881992368566_1_alg».proof.Proof.Gen.Kernel.Frame
import proofs.«135771_j8881992368566_1_alg».proof.Proof.Gen.KernelIdeal
import proofs.«135771_j8881992368566_1_alg».proof.Proof.Gen.KernelIdeal.Skeleton
import proofs.«135771_j8881992368566_1_alg».proof.Proof.Gen.KernelIdeal.Launch
import proofs.«135771_j8881992368566_1_alg».proof.Proof.Gen.KernelIdeal.Points
import proofs.«135771_j8881992368566_1_alg».proof.Proof.Gen.KernelIdeal.Frame
import proofs.«135771_j8881992368566_1_alg».proof.Proof.Gen.ReferenceIdeal
import proofs.«135771_j8881992368566_1_alg».proof.Proof.Gen.Pre_finite_inputs
import proofs.«135771_j8881992368566_1_alg».proof.Proof.KernelValue
import proofs.«135771_j8881992368566_1_alg».proof.Proof.RefHost
import Idealize.ShloMosaic.Adequacy
import Idealize.ShloMosaic.Init

noncomputable section

namespace Cert.Proof

open Idealize.ShloMosaic Idealize.ShloMosaic.TcCoe Idealize.SL.Sem Idealize.ShloMosaic.StableHlo Cert.Gcn

namespace Claims

/-- The reference runs and leaves its arguments as launched: no operation of its one line writes an argument. -/
theorem frame_ri : Cert.frame_ReferenceIdeal := fun m ρ _ =>
  (θ_run Cert.ReferenceIdeal.defs _ _).mono (fun r h c =>
      ⟨(h c Cert.ReferenceIdeal.main_arg0).trans (Cert.ReferenceIdeal.HostRead.kept_arg0 (launchContents m c)),
       (h c Cert.ReferenceIdeal.main_arg1).trans (Cert.ReferenceIdeal.HostRead.kept_arg1 (launchContents m c)),
       (h c Cert.ReferenceIdeal.main_arg2).trans (Cert.ReferenceIdeal.HostRead.kept_arg2 (launchContents m c)),
       (h c Cert.ReferenceIdeal.main_arg3).trans (Cert.ReferenceIdeal.HostRead.kept_arg3 (launchContents m c)),
       (h c Cert.ReferenceIdeal.main_arg4).trans (Cert.ReferenceIdeal.HostRead.kept_arg4 (launchContents m c)),
       (h c Cert.ReferenceIdeal.main_arg5).trans (Cert.ReferenceIdeal.HostRead.kept_arg5 (launchContents m c))⟩)
    (Cert.ReferenceIdeal.ValueP.run_all (F := Ideal) m ρ)

/-- From memories that agree on the six arguments both programs end with the network's value of those arguments in
    their result buffers. -/
theorem algebraic : Cert.algebraic_KernelIdeal_ReferenceIdeal := by
  intro m ρ m' ρ' _ hagree
  refine ⟨fun c => network (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)), Cert.KernelIdeal.RunValue.run m ρ, ?_⟩
  refine (θ_run Cert.ReferenceIdeal.defs _ _).mono (fun r h c => ?_) (Cert.ReferenceIdeal.ValueP.run_all (F := Ideal) m' ρ')
  obtain ⟨a0, a1, a2, a3, a4, a5⟩ := hagree c
  refine ⟨?_,
    (h c Cert.ReferenceIdeal.main_arg0).trans (Cert.ReferenceIdeal.HostRead.kept_arg0 (launchContents m' c)),
    (h c Cert.ReferenceIdeal.main_arg1).trans (Cert.ReferenceIdeal.HostRead.kept_arg1 (launchContents m' c)),
    (h c Cert.ReferenceIdeal.main_arg2).trans (Cert.ReferenceIdeal.HostRead.kept_arg2 (launchContents m' c)),
    (h c Cert.ReferenceIdeal.main_arg3).trans (Cert.ReferenceIdeal.HostRead.kept_arg3 (launchContents m' c)),
    (h c Cert.ReferenceIdeal.main_arg4).trans (Cert.ReferenceIdeal.HostRead.kept_arg4 (launchContents m' c)),
    (h c Cert.ReferenceIdeal.main_arg5).trans (Cert.ReferenceIdeal.HostRead.kept_arg5 (launchContents m' c))⟩
  refine (h c Cert.ReferenceIdeal.main_v65).trans ((Cert.ReferenceIdeal.HostRead.result (F := Ideal) (launchContents m' c)).trans ?_)
  have e0 : launchContents m' c (Proc.devRef .tc Cert.ReferenceIdeal.main_arg0) = m ((c : Thread Cert.KernelIdeal.nD Cert.KernelIdeal.τ).loc Cert.KernelIdeal.main_arg0) := a0
  have e1 : launchContents m' c (Proc.devRef .tc Cert.ReferenceIdeal.main_arg1) = m ((c : Thread Cert.KernelIdeal.nD Cert.KernelIdeal.τ).loc Cert.KernelIdeal.main_arg1) := a1
  have e2 : launchContents m' c (Proc.devRef .tc Cert.ReferenceIdeal.main_arg2) = m ((c : Thread Cert.KernelIdeal.nD Cert.KernelIdeal.τ).loc Cert.KernelIdeal.main_arg2) := a2
  have e3 : launchContents m' c (Proc.devRef .tc Cert.ReferenceIdeal.main_arg3) = m ((c : Thread Cert.KernelIdeal.nD Cert.KernelIdeal.τ).loc Cert.KernelIdeal.main_arg3) := a3
  have e4 : launchContents m' c (Proc.devRef .tc Cert.ReferenceIdeal.main_arg4) = m ((c : Thread Cert.KernelIdeal.nD Cert.KernelIdeal.τ).loc Cert.KernelIdeal.main_arg4) := a4
  have e5 : launchContents m' c (Proc.devRef .tc Cert.ReferenceIdeal.main_arg5) = m ((c : Thread Cert.KernelIdeal.nD Cert.KernelIdeal.τ).loc Cert.KernelIdeal.main_arg5) := a5
  rw [e0, e1, e2, e3, e4, e5]

end Claims

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Claims.frame_ri,
  trivial,
  Claims.algebraic⟩

end Cert.Proof

end
